-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S8192x8192 : Shape := ⟨2, ![8192, 8192]⟩
abbrev S8192 : Shape := ⟨1, ![8192]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S4096x8192 .f32) (main_arg1 : FVec F S8192x8192 .f32) (main_arg2 : FVec F S8192 .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  main_v13
-- ==== Kernel.lean ====
abbrev S4096x8192 : Shape := ⟨2, ![4096, 8192]⟩
abbrev S8192x8192 : Shape := ⟨2, ![8192, 8192]⟩
abbrev S8192 : Shape := ⟨1, ![8192]⟩
abbrev S512x16x8192 : Shape := ⟨3, ![512, 16, 8192]⟩
abbrev S_ : Shape := ⟨0, ![]⟩
abbrev S512x8192 : Shape := ⟨2, ![512, 8192]⟩
abbrev S512x16 : Shape := ⟨2, ![512, 16]⟩
abbrev S512 : Shape := ⟨1, ![512]⟩
abbrev S1x512 : Shape := ⟨2, ![1, 512]⟩
abbrev S4096x1 : Shape := ⟨2, ![4096, 1]⟩
abbrev S1024x1024 : Shape := ⟨2, ![1024, 1024]⟩
abbrev S512x1024 : Shape := ⟨2, ![512, 1024]⟩
abbrev S1024x1 : Shape := ⟨2, ![1024, 1]⟩
abbrev S1024x512 : Shape := ⟨2, ![1024, 512]⟩
abbrev S1024 : Shape := ⟨1, ![1024]⟩
abbrev S4096 : Shape := ⟨1, ![4096]⟩

abbrev nBuf : Space → Nat
  | .hbm => 18
  | .vmem => 8
  | .smem => 0
  | _ => 0

abbrev bufTy : (tb : Table) → Fin (tcTables nBuf tb) → BufTy
  | .hbm, ⟨0, _⟩ => ⟨S4096x8192, .f32⟩
  | .hbm, ⟨1, _⟩ => ⟨S8192x8192, .f32⟩
  | .hbm, ⟨2, _⟩ => ⟨S8192, .f32⟩
  | .hbm, ⟨3, _⟩ => ⟨S512x16x8192, .f32⟩
  | .hbm, ⟨4, _⟩ => ⟨S_, .f32⟩
  | .hbm, ⟨5, _⟩ => ⟨S512x8192, .f32⟩
  | .hbm, ⟨6, _⟩ => ⟨S_, .f32⟩
  | .hbm, ⟨7, _⟩ => ⟨S512x8192, .f32⟩
  | .hbm, ⟨8, _⟩ => ⟨S512x8192, .f32⟩
  | .hbm, ⟨9, _⟩ => ⟨S512x16, .f32⟩
  | .hbm, ⟨10, _⟩ => ⟨S_, .f32⟩
  | .hbm, ⟨11, _⟩ => ⟨S512, .f32⟩
  | .hbm, ⟨12, _⟩ => ⟨S_, .f32⟩
  | .hbm, ⟨13, _⟩ => ⟨S512, .f32⟩
  | .hbm, ⟨14, _⟩ => ⟨S512, .f32⟩
  | .hbm, ⟨15, _⟩ => ⟨S1x512, .f32⟩
  | .hbm, ⟨16, _⟩ => ⟨S4096x1, .f32⟩
  | .hbm, ⟨17, _⟩ => ⟨S4096, .f32⟩
  | .local _ .vmem, ⟨0, _⟩ => ⟨S1024x1024, .f32⟩
  | .local _ .vmem, ⟨1, _⟩ => ⟨S1024x1024, .f32⟩
  | .local _ .vmem, ⟨2, _⟩ => ⟨S512x1024, .f32⟩
  | .local _ .vmem, ⟨3, _⟩ => ⟨S512x1024, .f32⟩
  | .local _ .vmem, ⟨4, _⟩ => ⟨S1x512, .f32⟩
  | .local _ .vmem, ⟨5, _⟩ => ⟨S1024x1, .f32⟩
  | .local _ .vmem, ⟨6, _⟩ => ⟨S1024x1, .f32⟩
  | .local _ .vmem, ⟨7, _⟩ => ⟨S1024x512, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S8192x8192_S512x16x8192 : S8192x8192.ShapeCasts S512x16x8192
  reducesTo_S512x16x8192_S512x8192_d1 : S512x16x8192.ReducesTo [1] S512x8192
  h_S_ : 0 < S_.numel
  bcast_S_S512x8192 : S_.BroadcastsInDim S512x8192 (![] : Fin 0 → Fin S512x8192.rank)
  shapeCasts_S8192_S512x16 : S8192.ShapeCasts S512x16
  reducesTo_S512x16_S512_d1 : S512x16.ReducesTo [1] S512
  bcast_S_S512 : S_.BroadcastsInDim S512 (![] : Fin 0 → Fin S512.rank)
  shapeCasts_S512_S1x512 : S512.ShapeCasts S1x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  reduces_S1024x512_S1024 : S1024x512.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  shapeCasts_S4096x1_S4096 : S4096x1.ShapeCasts S4096
  dot_S1024x1024_S512x1024_S1024x512_1_1_0_0_n_n_wf : DotDims.WF S1024x1024 S512x1024 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x8192.size a
  hwx0_0 : ∀ i : grid0.Coords, EltTy.bits .f32 = 32 ∨ (Rect.block (s := S4096x8192) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x8192.size a
  hwx0_1 : ∀ i : grid0.Coords, EltTy.bits .f32 = 32 ∨ (Rect.block (s := S512x8192) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S4096x1.size a
  hwx0_3 : ∀ i : grid0.Coords, EltTy.bits .f32 = 32 ∨ (Rect.block (s := S4096x1) S1024x1.size (cc0_transform_3 i) (hinb0_3 i)).WholeWords (EltTy.packing .f32)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x8192 : Shape := ⟨2, ![4096, 8192]⟩
abbrev S8192x8192 : Shape := ⟨2, ![8192, 8192]⟩
abbrev S8192 : Shape := ⟨1, ![8192]⟩
abbrev S1x8192 : Shape := ⟨2, ![1, 8192]⟩
abbrev S4096x512x16 : Shape := ⟨3, ![4096, 512, 16]⟩
abbrev S_ : Shape := ⟨0, ![]⟩
abbrev S4096x512 : Shape := ⟨2, ![4096, 512]⟩
abbrev S4096 : Shape := ⟨1, ![4096]⟩

abbrev nBuf : Space → Nat
  | .hbm => 36
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S8192x8192, .f32⟩
  | .hbm, ⟨2, _⟩ => ⟨S8192, .f32⟩
  | .hbm, ⟨3, _⟩ => ⟨S8192x8192, .f32⟩
  | .hbm, ⟨4, _⟩ => ⟨S4096x8192, .f32⟩
  | .hbm, ⟨5, _⟩ => ⟨S1x8192, .f32⟩
  | .hbm, ⟨6, _⟩ => ⟨S4096x8192, .f32⟩
  | .hbm, ⟨7, _⟩ => ⟨S4096x8192, .f32⟩
  | .hbm, ⟨8, _⟩ => ⟨S4096x512x16, .f32⟩
  | .hbm, ⟨9, _⟩ => ⟨S_, .f32⟩
  | .hbm, ⟨10, _⟩ => ⟨S4096x512, .f32⟩
  | .hbm, ⟨11, _⟩ => ⟨S_, .f32⟩
  | .hbm, ⟨12, _⟩ => ⟨S4096x512, .f32⟩
  | .hbm, ⟨13, _⟩ => ⟨S4096x512, .f32⟩
  | .hbm, ⟨14, _⟩ => ⟨S4096x512, .f32⟩
  | .hbm, ⟨15, _⟩ => ⟨S4096x512, .f32⟩
  | .hbm, ⟨16, _⟩ => ⟨S_, .f32⟩
  | .hbm, ⟨17, _⟩ => ⟨S4096x512, .f32⟩
  | .hbm, ⟨18, _⟩ => ⟨S4096x512, .f32⟩
  | .hbm, ⟨19, _⟩ => ⟨S4096x512, .f32⟩
  | .hbm, ⟨20, _⟩ => ⟨S_, .f32⟩
  | .hbm, ⟨21, _⟩ => ⟨S4096x512, .f32⟩
  | .hbm, ⟨22, _⟩ => ⟨S4096x512, .f32⟩
  | .hbm, ⟨23, _⟩ => ⟨S4096x512, .f32⟩
  | .hbm, ⟨24, _⟩ => ⟨S_, .f32⟩
  | .hbm, ⟨25, _⟩ => ⟨S4096x512, .f32⟩
  | .hbm, ⟨26, _⟩ => ⟨S4096x512, .f32⟩
  | .hbm, ⟨27, _⟩ => ⟨S_, .f32⟩
  | .hbm, ⟨28, _⟩ => ⟨S4096x512, .f32⟩
  | .hbm, ⟨29, _⟩ => ⟨S4096x512, .f32⟩
  | .hbm, ⟨30, _⟩ => ⟨S4096x512, .f32⟩
  | .hbm, ⟨31, _⟩ => ⟨S_, .f32⟩
  | .hbm, ⟨32, _⟩ => ⟨S4096x512, .f32⟩
  | .hbm, ⟨33, _⟩ => ⟨S4096x512, .f32⟩
  | .hbm, ⟨34, _⟩ => ⟨S_, .f32⟩
  | .hbm, ⟨35, _⟩ => ⟨S4096, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩

abbrev nD : Nat := 1
abbrev τ : Topo := Topo.v7x

variable {F : FTy → Type} [FloatOps F]

class Facts₀ : Prop where
  transposes_S8192x8192_S8192x8192_1_0 : S8192x8192.Transposes [1, 0] S8192x8192
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  shapeCasts_S4096x8192_S4096x512x16 : S4096x8192.ShapeCasts S4096x512x16
  reducesTo_S4096x512x16_S4096x512_d2 : S4096x512x16.ReducesTo [2] S4096x512
  h_S_ : 0 < S_.numel
  bcast_S_S4096x512 : S_.BroadcastsInDim S4096x512 (![] : Fin 0 → Fin S4096x512.rank)
  reducesTo_S4096x512_S4096_d1 : S4096x512.ReducesTo [1] S4096
  dot_S4096x8192_S8192x8192_S4096x8192_1_0_0_1_n_n_wf : DotDims.WF S4096x8192 S8192x8192 S4096x8192 [1] [0] [0] [1] [] []

variable [Facts₀]

def dot_S4096x8192_S8192x8192_S4096x8192_1_0_0_1_n_n : DotDims S4096x8192 S8192x8192 S4096x8192 where
  lhsContracting := [1]
  rhsContracting := [0]
  lhsNonContracting := [0]
  rhsNonContracting := [1]
  lhsBatch := []
  rhsBatch := []
  wf := dot_S4096x8192_S8192x8192_S4096x8192_1_0_0_1_n_n_wf

class Facts : Prop extends Facts₀ where

variable [Facts]
-- ==== Proof.Pieces.lean ====
/-
  What one grid point leaves behind, as values.  The kernel keeps a 1024 × 512 accumulator in a scratch buffer
  across the eight k-steps of a row block: at the first step it stores zeros and then adds the step's product,
  at the later steps it adds the step's product to what the step before left, and at the last step it also
  writes the output block — the row maxima of the scaled GELU of accumulator plus bias.  Each of the three control
  cases ends with one covering store per buffer, so the buffer's contents are that store's value, a pure
  function of the blocks the point loads.
-/
import proofs.«168385_j25056839205126_2_alg».proof.Proof.Gen.KernelIdeal.Frame
import Idealize.ShloMosaic.Lib.Pipeline.Value
import Idealize.ShloMosaic.Lib.Tactic

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

/-- The zero offset of a rank-2 rectangle. -/
theorem hz : (![0, 0] : Fin 2 → Nat) = fun _ => 0 := funext fun a => by fin_cases a <;> rfl

/-- A middle k-step: the accumulator ends at the old accumulator plus the product of the two loaded blocks. -/
theorem sout_B (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1x512 .f32) (harg4 : arg4.IsWhole) (arg5 : Memref sig .tc .vmem S1024x1 .f32) (harg5 : arg5.IsWhole) (arg6 : Memref sig .tc .vmem S1024x512 .f32) (harg6 : arg6.IsWhole) (hc0 : ¬cond0_0 i) (hc1 : ¬cond0_1 i)
    (x0 : Vec F S1024x1024 .f32) (x1 : Vec F S512x1024 .f32) (x2 : Vec F S1x512 .f32) (xs0 : Vec F S1024x512 .f32) :
    sout0_B_0 c i arg2 harg2 arg3 harg3 arg4 harg4 arg5 harg5 arg6 harg6 hc0 hc1 x0 x1 x2 xs0 = k0_pay2 x0 x1 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  rw [View.canon_unit_zero hz]
  simp only [View.readAt_eq_ld, harg2.read_unread, harg3.read_unread, harg4.read_unread, harg6.read_unread, View.ld_unit_zero (S := S1024x1024) hz, View.ld_unit_zero (S := S512x1024) hz, View.ld_unit_zero (S := S1024x512) hz, View.ld_unit_zero (S := S1x512) hz]

/-- The first k-step: the accumulator is zeroed, read back, and ends at zero plus the product of the two blocks. -/
theorem sout_A (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1x512 .f32) (harg4 : arg4.IsWhole) (arg5 : Memref sig .tc .vmem S1024x1 .f32) (harg5 : arg5.IsWhole) (arg6 : Memref sig .tc .vmem S1024x512 .f32) (harg6 : arg6.IsWhole) (hc0 : cond0_0 i) (hc1 : ¬cond0_1 i)
    (x0 : Vec F S1024x1024 .f32) (x1 : Vec F S512x1024 .f32) (x2 : Vec F S1x512 .f32) :
    sout0_A_0 c i arg2 harg2 arg3 harg3 arg4 harg4 arg5 harg5 arg6 harg6 hc0 hc1 x0 x1 x2 = k0_pay2 x0 x1 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S1024x512) hz, View.readCov_unit_zero (S := S1024x512) _ hz]
  simp only [View.readAt_eq_ld, harg2.read_unread, harg3.read_unread, harg4.read_unread, harg6.read_unread, View.ld_unit_zero (S := S1024x1024) hz, View.ld_unit_zero (S := S512x1024) hz, View.ld_unit_zero (S := S1024x512) hz, View.ld_unit_zero (S := S1x512) hz]

/-- The last k-step leaves the accumulator as a middle step does; -/
theorem sout_C (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1x512 .f32) (harg4 : arg4.IsWhole) (arg5 : Memref sig .tc .vmem S1024x1 .f32) (harg5 : arg5.IsWhole) (arg6 : Memref sig .tc .vmem S1024x512 .f32) (harg6 : arg6.IsWhole) (hc0 : ¬cond0_0 i) (hc1 : cond0_1 i)
    (x0 : Vec F S1024x1024 .f32) (x1 : Vec F S512x1024 .f32) (x2 : Vec F S1x512 .f32) (xs0 : Vec F S1024x512 .f32) :
    sout0_C_0 c i arg2 harg2 arg3 harg3 arg4 harg4 arg5 harg5 arg6 harg6 hc0 hc1 x0 x1 x2 xs0 = k0_pay2 x0 x1 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz]
  simp only [View.readAt_eq_ld, harg2.read_unread, harg3.read_unread, harg4.read_unread, harg6.read_unread, View.ld_unit_zero (S := S1024x1024) hz, View.ld_unit_zero (S := S512x1024) hz, View.ld_unit_zero (S := S1024x512) hz, View.ld_unit_zero (S := S1x512) hz]

/-- and writes the output block from that final accumulator and the bias row. -/
theorem out_C (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1x512 .f32) (harg4 : arg4.IsWhole) (arg5 : Memref sig .tc .vmem S1024x1 .f32) (harg5 : arg5.IsWhole) (arg6 : Memref sig .tc .vmem S1024x512 .f32) (harg6 : arg6.IsWhole) (hc0 : ¬cond0_0 i) (hc1 : cond0_1 i)
    (x0 : Vec F S1024x1024 .f32) (x1 : Vec F S512x1024 .f32) (x2 : Vec F S1x512 .f32) (xs0 : Vec F S1024x512 .f32) :
    out0_C_3 c i arg2 harg2 arg3 harg3 arg4 harg4 arg5 harg5 arg6 harg6 hc0 hc1 x0 x1 x2 xs0 = k0_pay3 (k0_pay2 x0 x1 xs0) x2 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz, View.readCov_unit_zero (S := S1024x512) _ hz]
  simp only [View.readAt_eq_ld, harg2.read_unread, harg3.read_unread, harg4.read_unread, harg6.read_unread, View.ld_unit_zero (S := S1024x1024) hz, View.ld_unit_zero (S := S512x1024) hz, View.ld_unit_zero (S := S1024x512) hz, View.ld_unit_zero (S := S1x512) hz]

end Cert.KernelIdeal.Val

end
-- ==== Proof.LibGram.lean ====
/-
  Readings, at an entry, of the operations a table of distances between the rows of two arrays is built from, for any
  sizes.

  The squared distance between row `a` of one array and row `b` of another is the sum of the two rows' squared norms
  minus twice their inner product. A kernel keeps the first array's squared norms as a column (a length-`a` vector cast
  to `a × 1`), and takes the inner products by a matrix product that contracts one axis of each operand. The lemmas
  below read these two operations at an entry; the last one is the law by which halving a negated number is multiplying
  the number by minus one half, on every extended real.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Lib.Gram

open Idealize.ShloMosaic Idealize.ShloMosaic.ValueIdx

variable {α : Type}

/-- A length-`a` vector cast to an `a × 1` column reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A matrix product accumulated into zero whose dimension numbers contract ONE axis, of extent `k`, reads at an
    output entry `j` the sum over that axis's coordinate `c` of the products of the two operands at the entries
    `li c` and `ri c` the dimension numbers pair with `j` and `c`. -/
theorem matmul_zero_single_apply {sl sr so : Shape} {φ₁ φ₂ : FTy} (D : DotDims sl sr so) (k : ℕ)
    (hrank : D.contr.rank = 1) (hsize : D.contr.size ⟨0, by omega⟩ = k) (prec : Option ContractPrecision)
    (A : FVec Ideal sl φ₁) (B : FVec Ideal sr φ₂) (j : so.Idx) (li : Fin k → sl.Idx) (ri : Fin k → sr.Idx)
    (hl : ∀ c, D.lhsIdx j ((contrEquiv1 D k hrank hsize).symm c) = li c)
    (hr : ∀ c, D.rhsIdx j ((contrEquiv1 D k hrank hsize).symm c) = ri c) :
    matmul D prec A B (constant so .f32 0x00000000#32) j = ∑ c : Fin k, A (li c) * B (ri c) := by
  show FloatOps.matmul D prec A B _ j = _
  rw [Ideal.matmul_constant_zero_apply, ← Equiv.sum_comp (contrEquiv1 D k hrank hsize).symm]
  exact Finset.sum_congr rfl fun c _ => by rw [hl c, hr c]

/-- Halving the negation of an extended real is multiplying it by minus one half: division by the real `2` is the
    product with `1/2`, and a sign moves freely across a product — also at the two infinities. -/
theorem div_neg_two (d : EReal) : Ideal.div (-d) ((2 : ℝ) : EReal) = d * ((-(1 / 2) : ℝ) : EReal) := by
  rw [Ideal.div_coe (by norm_num : (2 : ℝ) ≠ 0), EReal.coe_neg, mul_neg, neg_mul]

end Cert.Lib.Gram

end
-- ==== Proof.Accumulate.lean ====
/-
  The accumulator across the grid.  The grid has 4 row blocks × 8 k-steps, point `t` being row block `t / 8` at
  k-step `t % 8`.  What the scratch accumulator holds after point `t` is defined by recursion on the point — reset
  at a first k-step, the previous contents plus the step's product otherwise — and shown to be what the run found.
  Read at an entry over the extended reals, it is the zero word plus the sum over the k-steps so far of the
  products of 1024 entries of a row of `x` with 1024 entries of a row of the averaged weights.
-/
import proofs.«168385_j25056839205126_2_alg».proof.Proof.Pieces
import proofs.«168385_j25056839205126_2_alg».proof.Proof.LibGram
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Idealize.ShloMosaic.ValueIdx

section AnyValues

variable {F : FTy → Type} [FloatOps F]
variable (m : (ℓ : Loc nD τ sig) → Buf (Elt F) ℓ)

/-- The accumulator after point `n`: at a first k-step the zero block plus the step's product, afterwards the
    previous accumulator plus the step's product. -/
def acc (c : Dev nD) : (n : ℕ) → n < cfg0.N → Vec F S1024x512 .f32
  | 0, h => k0_pay2 (iblk m c 0 ⟨0, h⟩) (iblk m c 1 ⟨0, h⟩) (k0_pay1 (F := F))
  | n + 1, h =>
    if (n + 1) % 8 = 0 then k0_pay2 (iblk m c 0 ⟨n + 1, h⟩) (iblk m c 1 ⟨n + 1, h⟩) (k0_pay1 (F := F))
    else k0_pay2 (iblk m c 0 ⟨n + 1, h⟩) (iblk m c 1 ⟨n + 1, h⟩) (acc c n (Nat.lt_of_succ_lt h))

/-- The scratch buffer after point `n`, as the run found it, is that accumulator: by induction on the point. -/
theorem scratch_eq (c : Dev nD) : ∀ (n : ℕ) (h : n < cfg0.N), (outsAt0 m c n h).2 = acc m c n h
  | 0, h => by
    rw [outsAt0_A m c ⟨0, h⟩ rfl (by show ¬(0 : ℕ) % 8 = 7; decide)]
    dsimp only
    rw [sout_A]
    rfl
  | n + 1, h => by
    by_cases h0 : (n + 1) % 8 = 0
    · have h1 : ¬(n + 1) % 8 = 7 := by omega
      rw [outsAt0_A m c ⟨n + 1, h⟩ h0 h1]
      dsimp only
      rw [sout_A]
      show _ = (if (n + 1) % 8 = 0 then _ else _)
      rw [if_pos h0]
    · by_cases h1 : (n + 1) % 8 = 7
      · rw [outsAt0_C m c ⟨n + 1, h⟩ h0 h1]
        dsimp only
        rw [sout_C]
        show k0_pay2 _ _ (outsAt0 m c n _).2 = (if (n + 1) % 8 = 0 then _ else _)
        rw [if_neg h0, scratch_eq c n]
      · rw [outsAt0_B m c ⟨n + 1, h⟩ h0 h1]
        dsimp only
        rw [sout_B]
        show k0_pay2 _ _ (outsAt0 m c n _).2 = (if (n + 1) % 8 = 0 then _ else _)
        rw [if_neg h0, scratch_eq c n]

/-- At a last k-step the output's staging buffer holds the output block computed from that point's accumulator
    and the bias row. -/
theorem out_eq (c : Dev nD) (t : Fin cfg0.N) (h1 : t.val % 8 = 7) :
    (outsAt0 m c t.val t.isLt).1 = k0_pay3 (acc m c t.val t.isLt) (iblk m c 2 t) := by
  have h0 : ¬t.val % 8 = 0 := by omega
  rw [← scratch_eq m c t.val t.isLt, outsAt0_C m c t h0 h1]
  dsimp only
  rw [out_C, sout_C]

end AnyValues

end Cert.KernelIdeal.Val

end
-- ==== Proof.LibBlockSum.lean ====
/-
  A sum over a long one-axis index set, cut into equal blocks.

  An array of `N = a * b` entries laid out in `a` consecutive blocks of `b` entries has entry `i * b + j` at offset `j` of
  block `i`; so a sum over all `N` entries is the sum over the blocks of the sum over the offsets. Cutting twice
  (`N = a * b * c`: blocks of rows of lanes) gives a triple sum with entry `(t * b + r) * c + l` at lane `l` of row `r` of
  block `t`. The sums are in any commutative monoid: only the order and grouping of the terms change.
-/
import Mathlib.Algebra.BigOperators.Fin
import Mathlib.Logic.Equiv.Fin.Basic
import Idealize.ShloMosaic.Lib.ValueIdx

noncomputable section

open scoped BigOperators

namespace Cert.Lib.BlockSum

open Idealize.ShloMosaic Idealize.ShloMosaic.ValueIdx

/-- Offset `j` of block `i`, of `a` blocks of length `b`, is a position below `a * b`. -/
theorem blockPos_lt {a b N : ℕ} (hN : a * b = N) (i : Fin a) (j : Fin b) : i.val * b + j.val < N := by
  subst hN
  calc i.val * b + j.val < i.val * b + b := by have := j.isLt; omega
    _ = (i.val + 1) * b := by ring
    _ ≤ a * b := Nat.mul_le_mul_right b i.isLt

/-- A sum over `a * b` positions is the sum over the `a` blocks of the sum over the `b` offsets. -/
theorem sum_fin_blocks {A : Type*} [AddCommMonoid A] {a b N : ℕ} (hN : a * b = N) (f : Fin N → A) :
    ∑ k, f k = ∑ i : Fin a, ∑ j : Fin b, f ⟨i.val * b + j.val, blockPos_lt hN i j⟩ := by
  subst hN
  rw [← Equiv.sum_comp finProdFinEquiv f, Fintype.sum_prod_type]
  refine Finset.sum_congr rfl fun i _ => Finset.sum_congr rfl fun j _ => congrArg f (Fin.ext ?_)
  show j.val + b * i.val = i.val * b + j.val
  rw [Nat.mul_comm]; omega

/-- A rank-1 index set is its coordinate's range, so a sum over it is the sum over the coordinate. -/
theorem sum_idx1 {A : Type*} [AddCommMonoid A] {n : ℕ} (f : (⟨1, ![n]⟩ : Shape).Idx → A) :
    ∑ i, f i = ∑ k : Fin n, f (ix1 k) := by
  let e : (⟨1, ![n]⟩ : Shape).Idx ≃ Fin n :=
    { toFun := fun i => i 0, invFun := fun k => ix1 k, left_inv := fun i => (eq_ix1 i).symm, right_inv := fun _ => rfl }
  rw [← Equiv.sum_comp e.symm f]
  rfl

/-- Lane `l` of row `r` of block `t`, of `a` blocks of `b` rows of `c` lanes, is a position below `a * b * c`. -/
theorem lanePos_lt {a b c N : ℕ} (hN : a * b * c = N) (t : Fin a) (r : Fin b) (l : Fin c) :
    (t.val * b + r.val) * c + l.val < N :=
  blockPos_lt (a := a * b) hN ⟨t.val * b + r.val, blockPos_lt rfl t r⟩ l

/-- A sum over a one-axis index set of `a * b * c` entries is the triple sum over blocks, rows and lanes. -/
theorem sum_idx1_blocks {A : Type*} [AddCommMonoid A] {a b c N : ℕ} (hN : a * b * c = N)
    (f : (⟨1, ![N]⟩ : Shape).Idx → A) :
    ∑ i, f i = ∑ t : Fin a, ∑ r : Fin b, ∑ l : Fin c, f (ix1 ⟨(t.val * b + r.val) * c + l.val, lanePos_lt hN t r l⟩) := by
  rw [sum_idx1, sum_fin_blocks (a := a * b) (b := c) hN, sum_fin_blocks (a := a) (b := b) (N := a * b) rfl]

end Cert.Lib.BlockSum

end
-- ==== Proof.LibBatchStats.lean ====
/-
  The statistics of a finite batch of real numbers, computed two ways, agree over the extended reals.

  One way accumulates the sum S and the sum of squares Q of the batch, scales both by the reciprocal c of the batch
  size, and takes  max (Q c - (S c) (S c)) 0  as the variance.  The other divides S by the batch size N to get the
  mean, subtracts the mean from every entry, and divides the sum of the squared deviations by N.  Over the reals

      Q / n - (S / n)^2  =  (sum_i (x_i - S / n)^2) / n,

  the right side is a mean of squares and so not negative, and the clamp at 0 does nothing.  Finiteness of the entries
  is what lets the identity be read over the extended reals: there it is a statement about coerced real numbers.
-/
import Idealize.ShloMosaic.PureOps.Ideal

noncomputable section

open scoped BigOperators

namespace Cert.LibBatchStats

open Idealize.ShloMosaic

/-- The coercion of the reals into the extended reals commutes with finite sums. -/
theorem coe_sum {ι : Type} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- Over the reals, the mean of the squares less the square of the mean is the mean of the squared deviations. -/
theorem mean_sq_sub_sq_mean {n : ℕ} (hn : n ≠ 0) (g : Fin n → ℝ) :
    (∑ i, g i * g i) / n - ((∑ i, g i) / n) * ((∑ i, g i) / n)
      = (∑ i, (g i - (∑ j, g j) / n) * (g i - (∑ j, g j) / n)) / n := by
  have hn' : (n : ℝ) ≠ 0 := Nat.cast_ne_zero.mpr hn
  have hS : ∑ i, g i = n * ((∑ j, g j) / n) := by field_simp
  have hexp : ∑ i, (g i - (∑ j, g j) / n) * (g i - (∑ j, g j) / n)
      = ∑ i, g i * g i - 2 * ((∑ j, g j) / n) * ∑ i, g i + n * (((∑ j, g j) / n) * ((∑ j, g j) / n)) := by
    have h1 : ∀ i, (g i - (∑ j, g j) / n) * (g i - (∑ j, g j) / n)
        = g i * g i - 2 * ((∑ j, g j) / n) * g i + ((∑ j, g j) / n) * ((∑ j, g j) / n) := fun i => by ring
    simp only [h1, Finset.sum_add_distrib, Finset.sum_sub_distrib, ← Finset.mul_sum, Finset.sum_const,
      Finset.card_univ, Fintype.card_fin, nsmul_eq_mul]
    ring
  rw [hexp]
  field_simp
  ring

/-- The mean of the squared deviations is not negative. -/
theorem mean_sq_dev_nonneg {n : ℕ} (g : Fin n → ℝ) (μ : ℝ) : 0 ≤ (∑ i, (g i - μ) * (g i - μ)) / n :=
  div_nonneg (Finset.sum_nonneg fun i _ => mul_self_nonneg _) (Nat.cast_nonneg n)

/-- The two computations of the mean and of the variance of a batch of REAL entries agree over the extended reals:
    `N` is the batch size and `c` its reciprocal, both as extended reals. -/
theorem stats_agree {n : ℕ} (hn : n ≠ 0) (g : Fin n → ℝ) (N c : EReal)
    (hN : N = ((n : ℝ) : EReal)) (hc : c = (((n : ℝ)⁻¹ : ℝ) : EReal)) :
    (∑ i, (g i : EReal)) * c = Ideal.div (∑ i, (g i : EReal)) N
    ∧ max ((∑ i, (g i : EReal) * (g i : EReal)) * c - ((∑ i, (g i : EReal)) * c) * ((∑ i, (g i : EReal)) * c)) 0
        = Ideal.div (∑ i, ((g i : EReal) - Ideal.div (∑ j, (g j : EReal)) N)
            * ((g i : EReal) - Ideal.div (∑ j, (g j : EReal)) N)) N := by
  have hn' : (n : ℝ) ≠ 0 := Nat.cast_ne_zero.mpr hn
  have hN0 : N ≠ 0 := by rw [hN]; exact_mod_cast hn'
  have hdiv : ∀ x : ℝ, Ideal.div (x : EReal) N = ((x / n : ℝ) : EReal) := fun x => by
    unfold Ideal.div
    rw [if_neg hN0, hN, ← EReal.coe_inv, ← EReal.coe_mul, div_eq_mul_inv]
  have hmul : ∀ x : ℝ, (x : EReal) * c = ((x / n : ℝ) : EReal) := fun x => by
    rw [hc, ← EReal.coe_mul, div_eq_mul_inv]
  have hsum : ∑ i, (g i : EReal) = ((∑ i, g i : ℝ) : EReal) := (coe_sum _ g).symm
  have hsq : ∑ i, (g i : EReal) * (g i : EReal) = ((∑ i, g i * g i : ℝ) : EReal) := by
    rw [coe_sum]; exact Finset.sum_congr rfl fun i _ => (EReal.coe_mul _ _).symm
  have hmean : (∑ i, (g i : EReal)) * c = Ideal.div (∑ i, (g i : EReal)) N := by rw [hsum, hmul, hdiv]
  refine ⟨hmean, ?_⟩
  have hdev : ∑ i, ((g i : EReal) - Ideal.div (∑ j, (g j : EReal)) N) * ((g i : EReal) - Ideal.div (∑ j, (g j : EReal)) N)
      = ((∑ i, (g i - (∑ j, g j) / n) * (g i - (∑ j, g j) / n) : ℝ) : EReal) := by
    rw [coe_sum]
    refine Finset.sum_congr rfl fun i _ => ?_
    rw [hsum, hdiv, ← EReal.coe_sub, ← EReal.coe_mul]
  rw [hdev, hdiv, hsq, hsum, hmul, hmul, ← EReal.coe_mul, ← EReal.coe_sub, mean_sq_sub_sq_mean hn g]
  exact max_eq_left (by exact_mod_cast mean_sq_dev_nonneg g _)

/-- The float word `0x47000000` is 32768 = 2^15. -/
theorem word_batch : Ideal.ofBits .f32 0x47000000#32 = (((32768 : ℕ) : ℝ) : EReal) := by
  simp [Ideal.ofBits, Ideal.ieee]
  rw [← EReal.coe_mul]
  norm_num

/-- The float word `0x38000000` is 2^(-15), the exact reciprocal of 32768. -/
theorem word_inv_batch : Ideal.ofBits .f32 0x38000000#32 = (((((32768 : ℕ) : ℝ))⁻¹ : ℝ) : EReal) := by
  simp [Ideal.ofBits, Ideal.ieee]
  rw [← EReal.coe_mul]
  norm_num

end Cert.LibBatchStats

end
-- ==== Proof.Spec.lean ====
/-
  The mathematics of the claim, with no program in sight.

  Both programs compute, for a row `x` of 8192 reals and an output group `g` of sixteen weight rows
  `W j` (j < 16) with biases `b j`, the group's averaged logit, then the scaled tanh-GELU of it, then the maximum
  over the 512 groups.  The reference averages AFTER the product: `(∑ j, (∑ k, x k · W j k + b j)) / 16`.  The
  kernel averages the weights and the biases BEFORE it, and sums the product in eight blocks of 1024:
  `∑ kb, ∑ kk, x (1024 kb + kk) · ((∑ j, W j (1024 kb + kk)) / 16) + (∑ j, b j) / 16`.  Over the reals these agree
  by distributivity and by exchanging the two finite sums; the extended reals do not distribute at the
  infinities, so the law is stated for real entries.
-/
import Idealize.ShloMosaic.PureOps.Ideal
import Idealize.ShloMosaic.PureOps.Ideal.Laws
import proofs.«168385_j25056839205126_2_alg».proof.Proof.LibBlockSum
import proofs.«168385_j25056839205126_2_alg».proof.Proof.LibBatchStats

noncomputable section

open scoped BigOperators

namespace Cert.PoolSpec

open Idealize.ShloMosaic Cert.Lib.BlockSum Cert.LibBatchStats

/-- The float word `0x41800000` is sixteen. -/
theorem word_sixteen : Ideal.ofBits .f32 0x41800000#32 = ((16 : ℝ) : EReal) := by
  simp [Ideal.ofBits, Ideal.ieee]
  rw [← EReal.coe_mul]
  norm_num

/-- The tanh-approximated GELU, doubled, as the kernel spells it on an extended real:
    `y · (½ · (1 + tanh (c₁ · (y + c₂ · (y · (y · y)))))) · 2`, each constant the float word both programs print. -/
def gelu2 (y : EReal) : EReal :=
  y * (Ideal.ofBits .f32 0x3F000000#32 * (Ideal.ofBits .f32 0x3F800000#32
      + Ideal.tanh (Ideal.ofBits .f32 0x3F4C422A#32 * (y + Ideal.ofBits .f32 0x3D372713#32 * (y * (y * y))))))
    * Ideal.ofBits .f32 0x40000000#32

/-- The reference cubes as `(y · y) · y`: the same number, multiplication being commutative. -/
theorem gelu2_ref (y : EReal) :
    y * (Ideal.ofBits .f32 0x3F000000#32 * (Ideal.ofBits .f32 0x3F800000#32
      + Ideal.tanh (Ideal.ofBits .f32 0x3F4C422A#32 * (y + Ideal.ofBits .f32 0x3D372713#32 * (y * y * y)))))
    * Ideal.ofBits .f32 0x40000000#32 = gelu2 y := by
  unfold gelu2
  rw [mul_comm (y * y) y]

/-- The maximum of 512 extended reals, folded from the word of minus infinity. -/
def rowMax (f : Fin 512 → EReal) : EReal :=
  (Finset.univ : Finset (Fin 512)).fold max (Ideal.ofBits .f32 0xFF800000#32) f

/-- Over the reals: the product with the averaged weights plus the averaged bias is the average of the sixteen
    biased products. -/
theorem pool_real (x : Fin 8192 → ℝ) (W : Fin 16 → Fin 8192 → ℝ) (b : Fin 16 → ℝ) :
    (∑ k, x k * ((∑ j, W j k) * (1 / 16))) + (∑ j, b j) * (1 / 16)
      = (∑ j, ((∑ k, x k * W j k) + b j)) * (1 / 16) := by
  have h1 : ∑ k, x k * ((∑ j, W j k) * (1 / 16)) = (∑ j, ∑ k, x k * W j k) * (1 / 16) := by
    have e : ∀ k, x k * ((∑ j, W j k) * (1 / 16)) = ∑ j, x k * W j k * (1 / 16) := fun k => by
      rw [Finset.sum_mul, Finset.mul_sum]
      exact Finset.sum_congr rfl fun j _ => by ring
    simp_rw [e]
    rw [Finset.sum_comm, Finset.sum_mul]
    exact Finset.sum_congr rfl fun j _ => (Finset.sum_mul _ _ _).symm
  rw [h1, Finset.sum_add_distrib, add_mul]

/-- The same over the extended reals, for real entries, in the two programs' own spellings: the kernel's blocked
    sum from the zero word with each average a division by the word of sixteen, against the reference's division
    of the sum from the zero word. -/
theorem pool_law (x : Fin 8192 → ℝ) (W : Fin 16 → Fin 8192 → ℝ) (b : Fin 16 → ℝ) :
    (Ideal.ofBits .f32 0x00000000#32 + ∑ kb : Fin 8, ∑ kk : Fin 1024,
        (x ⟨kb.val * 1024 + kk.val, blockPos_lt (by norm_num : 8 * 1024 = 8192) kb kk⟩ : EReal)
          * Ideal.div (Ideal.ofBits .f32 0x00000000#32
              + ∑ j : Fin 16, (W j ⟨kb.val * 1024 + kk.val, blockPos_lt (by norm_num : 8 * 1024 = 8192) kb kk⟩ : EReal))
            (Ideal.ofBits .f32 0x41800000#32))
      + Ideal.div (Ideal.ofBits .f32 0x00000000#32 + ∑ j : Fin 16, (b j : EReal)) (Ideal.ofBits .f32 0x41800000#32)
    = Ideal.div (Ideal.ofBits .f32 0x00000000#32
        + ∑ j : Fin 16, ((∑ k : Fin 8192, (x k : EReal) * (W j k : EReal)) + (b j : EReal)))
        (Ideal.ofBits .f32 0x41800000#32) := by
  have hr := congrArg (fun r : ℝ => (r : EReal)) (pool_real x W b)
  simp only [EReal.coe_add, EReal.coe_mul, coe_sum] at hr
  simp only [Ideal.ofBits_zero_f32, zero_add, word_sixteen, Ideal.div_coe (by norm_num : (16 : ℝ) ≠ 0)]
  rw [← sum_fin_blocks (a := 8) (b := 1024) (N := 8192) (by norm_num)
    (fun k : Fin 8192 => (x k : EReal) * ((∑ j : Fin 16, (W j k : EReal)) * ((1 / 16 : ℝ) : EReal)))]
  exact hr

end Cert.PoolSpec

end
-- ==== Proof.AccRead.lean ====
/-
  The accumulator and the output block read entry by entry over the extended reals.

  Point `t` loads rows `1024·(t/8) … ` and columns `1024·(t%8) …` of `x`, all 512 rows and the same columns of
  the averaged weights, and the bias row.  One step's contribution to accumulator entry `(r, g)` is the sum over
  the 1024 columns of the step of `x` times the averaged weight; after k-step `t % 8` the entry is the zero word
  plus the contributions of steps `0 … t % 8`.  The output entry of a row is the maximum over the 512 groups of
  the doubled GELU of accumulator plus bias.
-/
import proofs.«168385_j25056839205126_2_alg».proof.Proof.Accumulate
import proofs.«168385_j25056839205126_2_alg».proof.Proof.Spec

set_option maxRecDepth 16384

noncomputable section

open scoped BigOperators

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Idealize.ShloMosaic.ValueIdx Cert.PoolSpec

variable (m : (ℓ : Loc nD τ sig) → Buf (Elt Ideal) ℓ)

/-! ## The blocks a point loads -/

/-- Point `t` is row block `t / 8`, column block `t % 8` of `x`; -/
theorem idx_x : ∀ t : Fin cfg0.N, win0_0.index t (0 : Fin 2) = t.val / 8 ∧ win0_0.index t (1 : Fin 2) = t.val % 8 :=
  (by decide +kernel : ∀ t : Fin grid0.N, win0_0.index t (0 : Fin 2) = t.val / 8 ∧ win0_0.index t (1 : Fin 2) = t.val % 8)
/-- all rows and column block `t % 8` of the averaged weights; -/
theorem idx_w : ∀ t : Fin cfg0.N, win0_1.index t (0 : Fin 2) = 0 ∧ win0_1.index t (1 : Fin 2) = t.val % 8 :=
  (by decide +kernel : ∀ t : Fin grid0.N, win0_1.index t (0 : Fin 2) = 0 ∧ win0_1.index t (1 : Fin 2) = t.val % 8)
/-- the whole bias row; -/
theorem idx_b : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- Entry `(r, kk)` of the block of `x` at point `t` is entry `(1024·(t/8) + r, 1024·(t%8) + kk)` of `x`. -/
theorem blk_x (c : Dev nD) (t : Fin cfg0.N) (r kk : Fin 1024) (R : Fin 4096) (K : Fin 8192)
    (hR : R.val = 1024 * (t.val / 8) + r.val) (hK : K.val = (t.val % 8) * 1024 + kk.val) :
    (iblk m c 0 t : Vec Ideal S1024x1024 .f32) (ix2 r kk) = (V m c main_arg0 : S4096x8192.Idx → EReal) (ix2 R K) := by
  unfold iblk
  rw [View.read_apply]
  show V m c main_arg0 _ = V m c main_arg0 _
  refine congrArg (V m c main_arg0) (funext fun a => Fin.ext ?_)
  match a with
  | ⟨0, _⟩ => show win0_0.index t 0 * 1024 + 1 * r.val = R.val; rw [(idx_x t).1]; omega
  | ⟨1, _⟩ => show win0_0.index t 1 * 1024 + 1 * kk.val = K.val; rw [(idx_x t).2]; omega

/-- Entry `(g, kk)` of the block of averaged weights at point `t` is entry `(g, 1024·(t%8) + kk)` of them. -/
theorem blk_w (c : Dev nD) (t : Fin cfg0.N) (g : Fin 512) (kk : Fin 1024) (K : Fin 8192)
    (hK : K.val = (t.val % 8) * 1024 + kk.val) :
    (iblk m c 1 t : Vec Ideal S512x1024 .f32) (ix2 g kk) = (V m c main_v3 : S512x8192.Idx → EReal) (ix2 g K) := by
  unfold iblk
  rw [View.read_apply]
  show V m c main_v3 _ = V m c main_v3 _
  refine congrArg (V m c main_v3) (funext fun a => Fin.ext ?_)
  match a with
  | ⟨0, _⟩ => show win0_1.index t 0 * 512 + 1 * g.val = g.val; rw [(idx_w t).1]; omega
  | ⟨1, _⟩ => show win0_1.index t 1 * 1024 + 1 * kk.val = K.val; rw [(idx_w t).2]; omega

/-- The bias block at any point is the bias row. -/
theorem blk_b (c : Dev nD) (t : Fin cfg0.N) (u : Fin 1) (g : Fin 512) :
    (iblk m c 2 t : Vec Ideal S1x512 .f32) (ix2 u g) = (V m c main_v8 : S1x512.Idx → EReal) (ix2 u g) := by
  unfold iblk
  rw [View.read_apply]
  show V m c main_v8 _ = V m c main_v8 _
  refine congrArg (V m c main_v8) (funext fun a => Fin.ext ?_)
  match a with
  | ⟨0, _⟩ => show win0_2.index t 0 * 1 + 1 * u.val = u.val; rw [(idx_b t).1]; omega
  | ⟨1, _⟩ => show win0_2.index t 1 * 512 + 1 * g.val = g.val; rw [(idx_b t).2]; omega

/-! ## One step's stores, at an entry -/

/-- The zero block reads the zero word everywhere. -/
theorem pay1_apply (i : S1024x512.Idx) : k0_pay1 (F := Ideal) i = Ideal.ofBits .f32 0x00000000#32 := by
  unfold k0_pay1
  rw [shapeCast_self]
  rfl

/-- The product's first operand is read at the output's row, -/
theorem lhs_row (j : S1024x512.Idx) (q : dot_S1024x1024_S512x1024_S1024x512_1_1_0_0_n_n.contr.Idx) : (dot_S1024x1024_S512x1024_S1024x512_1_1_0_0_n_n.lhsIdx j q 0).val = (j 0).val := by
  unfold DotDims.lhsIdx
  rw [dif_neg (show ¬(0 : Fin S1024x1024.rank) ∈ dot_S1024x1024_S512x1024_S1024x512_1_1_0_0_n_n.lhsBatch by decide),
    dif_pos (show (0 : Fin S1024x1024.rank) ∈ dot_S1024x1024_S512x1024_S1024x512_1_1_0_0_n_n.lhsNonContracting by decide)]
  rfl
/-- and its second operand at the row the output's column names; -/
theorem rhs_row (j : S1024x512.Idx) (q : dot_S1024x1024_S512x1024_S1024x512_1_1_0_0_n_n.contr.Idx) : (dot_S1024x1024_S512x1024_S1024x512_1_1_0_0_n_n.rhsIdx j q 0).val = (j 1).val := by
  unfold DotDims.rhsIdx
  rw [dif_neg (show ¬(0 : Fin S512x1024.rank) ∈ dot_S1024x1024_S512x1024_S1024x512_1_1_0_0_n_n.rhsBatch by decide),
    dif_pos (show (0 : Fin S512x1024.rank) ∈ dot_S1024x1024_S512x1024_S1024x512_1_1_0_0_n_n.rhsNonContracting by decide)]
  rfl
/-- both at the contracted column. -/
theorem lhs_col (j : S1024x512.Idx) (q : dot_S1024x1024_S512x1024_S1024x512_1_1_0_0_n_n.contr.Idx) : (dot_S1024x1024_S512x1024_S1024x512_1_1_0_0_n_n.lhsIdx j q 1).val = (q ⟨0, by decide⟩).val :=
  dot_S1024x1024_S512x1024_S1024x512_1_1_0_0_n_n.lhsIdx_val_of_single rfl j q
theorem rhs_col (j : S1024x512.Idx) (q : dot_S1024x1024_S512x1024_S1024x512_1_1_0_0_n_n.contr.Idx) : (dot_S1024x1024_S512x1024_S1024x512_1_1_0_0_n_n.rhsIdx j q 1).val = (q ⟨0, by decide⟩).val :=
  dot_S1024x1024_S512x1024_S1024x512_1_1_0_0_n_n.rhsIdx_val_of_single rfl j q

/-- The accumulate step at entry `(r, g)`: the old entry plus the sum over the 1024 columns of the products of row
    `r` of the first block with row `g` of the second (both contract their second axis). -/
theorem pay2_apply (x0 : Vec Ideal S1024x1024 .f32) (x1 : Vec Ideal S512x1024 .f32) (xs : Vec Ideal S1024x512 .f32)
    (r : Fin 1024) (g : Fin 512) :
    k0_pay2 (F := Ideal) x0 x1 xs (ix2 r g) = xs (ix2 r g) + ∑ kk : Fin 1024, x0 (ix2 r kk) * x1 (ix2 g kk) := by
  unfold k0_pay2
  rw [shapeCast_self, shapeCast_self]
  refine congrArg (xs (ix2 r g) + ·) ?_
  refine Cert.Lib.Gram.matmul_zero_single_apply dot_S1024x1024_S512x1024_S1024x512_1_1_0_0_n_n 1024 rfl rfl none _ _
    (ix2 r g) (fun kk => ix2 r kk) (fun kk => ix2 g kk) (fun kk => ?_) (fun kk => ?_)
  · have hk := contrEquiv1_symm_val dot_S1024x1024_S512x1024_S1024x512_1_1_0_0_n_n 1024 rfl rfl kk
    refine funext fun a => Fin.ext ?_
    match a with
    | ⟨0, _⟩ => exact lhs_row _ _
    | ⟨1, _⟩ => exact (lhs_col _ _).trans hk
  · have hk := contrEquiv1_symm_val dot_S1024x1024_S512x1024_S1024x512_1_1_0_0_n_n 1024 rfl rfl kk
    refine funext fun a => Fin.ext ?_
    match a with
    | ⟨0, _⟩ => exact rhs_row _ _
    | ⟨1, _⟩ => exact (rhs_col _ _).trans hk

/-- The output block at entry `(r, u)`: the maximum over the 512 groups of the doubled GELU of accumulator plus
    bias. -/
theorem pay3_apply (xs : Vec Ideal S1024x512 .f32) (x2 : Vec Ideal S1x512 .f32) (r : Fin 1024) (u : Fin 1) :
    k0_pay3 (F := Ideal) xs x2 (ix2 r u) = rowMax fun g => gelu2 (xs (ix2 r g) + x2 (ix2 (0 : Fin 1) g)) := by
  have hb : ∀ g : Fin 512, broadcastTo S1024x512 (shapeCast S1x512 x2 shapeCasts_S1x512_S1x512) broadcasts_S1x512_S1024x512 (ix2 r g)
      = x2 (ix2 (0 : Fin 1) g) := fun g => by
    rw [shapeCast_self]
    exact broadcastTo_1b_ab_apply x2 _ r g
  unfold k0_pay3
  refine (Cert.Lib.Gram.shapeCast_a_a1_apply _ _ r u).trans ?_
  refine (Ideal.multiReduction_maximumf_single _ _ reduces_S1024x512_S1024 _ _ (ix1 r)).trans ?_
  unfold rowMax
  refine congrArg (fun f => Finset.fold max (Ideal.ofBits .f32 0xFF800000#32) f (Finset.univ : Finset (Fin 512)))
    (funext fun g => ?_)
  have hl : reduces_S1024x512_S1024.lift (ix1 r) g = ix2 r g :=
    funext fun ax => Fin.ext (by
      match ax with
      | ⟨0, _⟩ => rfl
      | ⟨1, _⟩ => rfl)
  rw [Function.comp_apply, hl]
  unfold gelu2
  rw [← hb g]
  rfl

/-! ## The accumulator in closed form -/

/-- Row `R` of `x`, as a sequence (zero past its 8192 entries). -/
def xrow (X : S4096x8192.Idx → EReal) (R : Fin 4096) (n : ℕ) : EReal := if h : n < 8192 then X (ix2 R ⟨n, h⟩) else 0
/-- Row `g` of the averaged weights, as a sequence. -/
def wrow (Wp : S512x8192.Idx → EReal) (g : Fin 512) (n : ℕ) : EReal := if h : n < 8192 then Wp (ix2 g ⟨n, h⟩) else 0
/-- K-step `kb`'s contribution to entry `(R, g)`: the products over columns `1024 kb … 1024 kb + 1023`. -/
def stepDot (X : S4096x8192.Idx → EReal) (Wp : S512x8192.Idx → EReal) (R : Fin 4096) (g : Fin 512) (kb : ℕ) : EReal :=
  ∑ kk : Fin 1024, xrow X R (kb * 1024 + kk.val) * wrow Wp g (kb * 1024 + kk.val)
/-- The accumulator entry after `n` k-steps: the zero word plus their contributions. -/
def partialDot (X : S4096x8192.Idx → EReal) (Wp : S512x8192.Idx → EReal) (R : Fin 4096) (g : Fin 512) (n : ℕ) : EReal :=
  Ideal.ofBits .f32 0x00000000#32 + ∑ kb ∈ Finset.range n, stepDot X Wp R g kb

/-- The product of the two blocks of point `t` at entry `(r, g)` is k-step `t % 8`'s contribution to entry
    `(1024·(t/8) + r, g)`. -/
theorem step_eq (c : Dev nD) (t : Fin cfg0.N) (r : Fin 1024) (g : Fin 512) (R : Fin 4096)
    (hR : R.val = 1024 * (t.val / 8) + r.val) (x0 : Vec Ideal S1024x1024 .f32) (x1 : Vec Ideal S512x1024 .f32)
    (e0 : x0 = iblk m c 0 t) (e1 : x1 = iblk m c 1 t) :
    ∑ kk : Fin 1024, x0 (ix2 r kk) * x1 (ix2 g kk)
      = stepDot (V m c main_arg0) (V m c main_v3) R g (t.val % 8) := by
  subst e0; subst e1
  unfold stepDot
  refine Finset.sum_congr rfl fun kk _ => ?_
  have hlt : (t.val % 8) * 1024 + kk.val < 8192 := by have := kk.isLt; omega
  rw [xrow, wrow, dif_pos hlt, dif_pos hlt, blk_x m c t r kk R ⟨_, hlt⟩ hR rfl, blk_w m c t g kk ⟨_, hlt⟩ rfl]

/-- After point `n` the accumulator entry `(r, g)` holds the contributions of k-steps `0 … n % 8` to entry
    `(1024·(n/8) + r, g)`: by induction on the point. -/
theorem acc_apply (c : Dev nD) : ∀ (n : ℕ) (h : n < cfg0.N) (r : Fin 1024) (g : Fin 512) (R : Fin 4096),
    R.val = 1024 * (n / 8) + r.val →
    acc m c n h (ix2 r g) = partialDot (V m c main_arg0) (V m c main_v3) R g (n % 8 + 1)
  | 0, h, r, g, R, hR => by
    refine (pay2_apply (iblk m c 0 ⟨0, h⟩) (iblk m c 1 ⟨0, h⟩) (k0_pay1 (F := Ideal)) r g).trans ?_
    rw [pay1_apply, step_eq m c ⟨0, h⟩ r g R hR (iblk m c 0 ⟨0, h⟩) (iblk m c 1 ⟨0, h⟩) rfl rfl]
    show _ = partialDot _ _ R g 1
    rw [partialDot, Finset.sum_range_one]
    rfl
  | n + 1, h, r, g, R, hR => by
    by_cases h0 : (n + 1) % 8 = 0
    · have e : acc m c (n + 1) h = k0_pay2 (iblk m c 0 ⟨n + 1, h⟩) (iblk m c 1 ⟨n + 1, h⟩) (k0_pay1 (F := Ideal)) := by
        show (if (n + 1) % 8 = 0 then _ else _) = _
        rw [if_pos h0]
      rw [e]
      refine (pay2_apply (iblk m c 0 ⟨n + 1, h⟩) (iblk m c 1 ⟨n + 1, h⟩) (k0_pay1 (F := Ideal)) r g).trans ?_
      rw [pay1_apply, step_eq m c ⟨n + 1, h⟩ r g R hR (iblk m c 0 ⟨n + 1, h⟩) (iblk m c 1 ⟨n + 1, h⟩) rfl rfl]
      show _ + stepDot _ _ R g ((n + 1) % 8) = partialDot _ _ R g ((n + 1) % 8 + 1)
      rw [h0, partialDot, Finset.sum_range_one]
    · have e : acc m c (n + 1) h = k0_pay2 (iblk m c 0 ⟨n + 1, h⟩) (iblk m c 1 ⟨n + 1, h⟩) (acc m c n (Nat.lt_of_succ_lt h)) := by
        show (if (n + 1) % 8 = 0 then _ else _) = _
        rw [if_neg h0]
      rw [e]
      refine (pay2_apply (iblk m c 0 ⟨n + 1, h⟩) (iblk m c 1 ⟨n + 1, h⟩) (acc m c n (Nat.lt_of_succ_lt h)) r g).trans ?_
      rw [acc_apply c n (Nat.lt_of_succ_lt h) r g R (by omega), step_eq m c ⟨n + 1, h⟩ r g R hR (iblk m c 0 ⟨n + 1, h⟩) (iblk m c 1 ⟨n + 1, h⟩) rfl rfl]
      have hk : (n + 1) % 8 = n % 8 + 1 := by omega
      show partialDot _ _ R g (n % 8 + 1) + stepDot _ _ R g ((n + 1) % 8) = partialDot _ _ R g ((n + 1) % 8 + 1)
      rw [hk, partialDot, partialDot, Finset.sum_range_succ _ (n % 8 + 1), add_assoc]

/-- So at a last k-step the output block's entry `(r, u)` is the maximum over the groups of the doubled GELU of the
    full product's entry `(1024·(t/8) + r, g)` plus the averaged bias. -/
theorem out_apply (c : Dev nD) (t : Fin cfg0.N) (h1 : t.val % 8 = 7) (r : Fin 1024) (u : Fin 1) (R : Fin 4096)
    (hR : R.val = 1024 * (t.val / 8) + r.val) :
    (outsAt0 m c t.val t.isLt).1 (ix2 r u)
      = rowMax fun g => gelu2 (partialDot (V m c main_arg0) (V m c main_v3) R g 8
          + (V m c main_v8 : S1x512.Idx → EReal) (ix2 (0 : Fin 1) g)) := by
  rw [out_eq m c t h1]
  refine (pay3_apply (acc m c t.val t.isLt) (iblk m c 2 t) r u).trans ?_
  refine congrArg rowMax (funext fun g => ?_)
  rw [acc_apply m c t.val t.isLt r g R hR, blk_b m c t 0 g, h1]

/-- The same at an entry given by its coordinates. -/
theorem out_apply' (c : Dev nD) (t : Fin cfg0.N) (h1 : t.val % 8 = 7) (j : S1024x1.Idx) (R : Fin 4096)
    (hR : R.val = 1024 * (t.val / 8) + (j 0).val) :
    (outsAt0 m c t.val t.isLt).1 j
      = rowMax fun g => gelu2 (partialDot (V m c main_arg0) (V m c main_v3) R g 8
          + (V m c main_v8 : S1x512.Idx → EReal) (ix2 (0 : Fin 1) g)) := by
  exact (congrArg (outsAt0 m c t.val t.isLt).1 (eq_ix2 j)).trans (out_apply m c t h1 (j 0) (j 1) R hR)

end Cert.KernelIdeal.Val

end
-- ==== Proof.HostPrefix.lean ====
/-
  What the host lines before the kernel leave in its second and third operands.  The weights `W` (8192 × 8192) are
  viewed as 512 groups of 16 rows and averaged over the group: entry `(g, k)` of the averaged weights is the zero
  word plus the sum over `j < 16` of `W (16 g + j, k)`, divided by the word of sixteen.  The bias is averaged the same
  way and kept as one row of 512.  The first operand is `x` itself.
-/
import proofs.«168385_j25056839205126_2_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Idealize.ShloMosaic Idealize.ShloMosaic.TcCoe Idealize.SL.Sem Idealize.ShloMosaic.StableHlo
open Cert.KernelIdeal Cert.KernelIdeal.Gen Idealize.ShloMosaic.ValueIdx

variable (m : (ℓ : Loc nD τ sig) → Buf (Elt Ideal) ℓ)

/-- Row `j` of group `g` is row `16 g + j`. -/
theorem groupRow_lt (g : Fin 512) (j : Fin 16) : 16 * g.val + j.val < 8192 := by
  have := g.isLt; have := j.isLt; omega

/-- The group average of the weights, as the host lines compute it from `W`. -/
def avgW (W : S8192x8192.Idx → EReal) : S512x8192.Idx → EReal :=
  Host.divf (F := Ideal) (Host.reduceAdd (shapeCast S512x16x8192 W shapeCasts_S8192x8192_S512x16x8192)
      (constant S_ .f32 0x00000000#32) reducesTo_S512x16x8192_S512x8192_d1 h_S_)
    (broadcastInDim S512x8192 ![] bcast_S_S512x8192 (constant S_ .f32 0x41800000#32))

/-- The group average of the bias, as one row. -/
def avgB (b : S8192.Idx → EReal) : S1x512.Idx → EReal :=
  shapeCast S1x512 (Host.divf (F := Ideal) (Host.reduceAdd (shapeCast S512x16 b shapeCasts_S8192_S512x16)
      (constant S_ .f32 0x00000000#32) reducesTo_S512x16_S512_d1 h_S_)
    (broadcastInDim S512 ![] bcast_S_S512 (constant S_ .f32 0x41800000#32))) shapeCasts_S512_S1x512

/-- The kernel's second operand is the averaged weights of the launch contents of `W`. -/
theorem V_avgW (c : Dev nD) :
    (V m c main_v3 : S512x8192.Idx → EReal) = avgW (m ((c : Thread nD τ).loc main_arg1)) := by
  show StableHlo.after hostOps0 (fun b => m (c, b)) (Proc.devRef .tc main_v3) = _
  after_results
  rfl

/-- Its third operand is the averaged bias row of the launch contents of `b`. -/
theorem V_avgB (c : Dev nD) :
    (V m c main_v8 : S1x512.Idx → EReal) = avgB (m ((c : Thread nD τ).loc main_arg2)) := by
  show StableHlo.after hostOps0 (fun b => m (c, b)) (Proc.devRef .tc main_v8) = _
  after_results
  rfl

/-- Entry `(g, k)` of the averaged weights. -/
theorem avgW_apply (W : S8192x8192.Idx → EReal) (g : Fin 512) (k : Fin 8192) :
    avgW W (ix2 g k) = Ideal.div (Ideal.ofBits .f32 0x00000000#32
        + ∑ j : Fin 16, W (ix2 ⟨16 * g.val + j.val, groupRow_lt g j⟩ k)) (Ideal.ofBits .f32 0x41800000#32) := by
  unfold avgW
  show Ideal.div (Host.reduceAdd (F := Ideal) _ _ _ _ (ix2 g k)) (broadcastInDim _ _ _ _ (ix2 g k)) = _
  rw [broadcastInDim_apply _ bcast_S_S512x8192 _ (ix2 g k) ix0 (fun a => a.elim0)]
  simp only [Host.reduceAdd, Ideal.hostReduceAdd_def]
  rw [Ideal.hostReduceAdd_single reducesTo_S512x16x8192_S512x8192_d1 (by decide)]
  refine congrArg₂ Ideal.div (congrArg (_ + ·) (Finset.sum_congr rfl fun j _ => ?_)) rfl
  refine shapeCast_apply W _ _ _ ?_
  rw [Shape.rowMajor_val_two, Shape.rowMajor_val_three]
  show (16 * g.val + j.val) * 8192 + k.val = (g.val * 16 + j.val) * 8192 + k.val
  omega

/-- Entry `g` of the averaged bias row. -/
theorem avgB_apply (b : S8192.Idx → EReal) (u : Fin 1) (g : Fin 512) :
    avgB b (ix2 u g) = Ideal.div (Ideal.ofBits .f32 0x00000000#32
        + ∑ j : Fin 16, b (ix1 ⟨16 * g.val + j.val, groupRow_lt g j⟩)) (Ideal.ofBits .f32 0x41800000#32) := by
  unfold avgB
  rw [shapeCast_a_1a_apply]
  show Ideal.div (Host.reduceAdd (F := Ideal) _ _ _ _ (ix1 g)) (broadcastInDim _ _ _ _ (ix1 g)) = _
  rw [broadcastInDim_apply _ bcast_S_S512 _ (ix1 g) ix0 (fun a => a.elim0)]
  simp only [Host.reduceAdd, Ideal.hostReduceAdd_def]
  rw [Ideal.hostReduceAdd_single reducesTo_S512x16_S512_d1 (by decide)]
  refine congrArg₂ Ideal.div (congrArg (_ + ·) (Finset.sum_congr rfl fun j _ => ?_)) rfl
  refine shapeCast_apply b _ _ _ ?_
  rw [Shape.rowMajor_val_one, Shape.rowMajor_val_two]
  show 16 * g.val + j.val = g.val * 16 + j.val
  omega

end Cert.KernelIdeal.Val

end
-- ==== Proof.KernelOut.lean ====
/-
  The kernel's result array.  Output block `i` (rows `1024 i … 1024 i + 1023` of the 4096 × 1 column) is written
  back once, after the last k-step of its row block, and the four blocks tile the column; so the column ends
  holding, at row `R`, the maximum over the groups of the doubled GELU of the full product's entry plus the
  averaged bias.  The one host line after the kernel drops the unit axis.
-/
import proofs.«168385_j25056839205126_2_alg».proof.Proof.AccRead
import proofs.«168385_j25056839205126_2_alg».proof.Proof.HostPrefix

set_option maxRecDepth 16384

noncomputable section

open scoped BigOperators

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Idealize.ShloMosaic.ValueIdx Cert.PoolSpec Idealize.ShloMosaic.StableHlo

variable (m : (ℓ : Loc nD τ sig) → Buf (Elt Ideal) ℓ) (ρ : Dev nD → PrngReg)

/-- The column the kernel writes, from `x`, the averaged weights and the averaged bias row. -/
def kout (X : S4096x8192.Idx → EReal) (Wp : S512x8192.Idx → EReal) (bp : S1x512.Idx → EReal) : S4096x1.Idx → EReal :=
  fun i => rowMax fun g => gelu2 (partialDot X Wp (i 0) g 8 + bp (ix2 (0 : Fin 1) g))

/-- Point `t`'s output block is block `t / 8` of the column. -/
theorem idx_o : ∀ t : Fin cfg0.N, win0_3.index t (0 : Fin 2) = t.val / 8 ∧ win0_3.index t (1 : Fin 2) = 0 :=
  (by decide +kernel : ∀ t : Fin grid0.N, win0_3.index t (0 : Fin 2) = t.val / 8 ∧ win0_3.index t (1 : Fin 2) = 0)

/-- What a writing point writes back is its block of that column. -/
theorem flushed_eq (c : Dev nD) (t : Fin cfg0.N) (hf : (cfg0.win 3).flush t = true) :
    (dats m 0 c).flushed 3 t
      = ((cfg0.win 3).blk t).view.read (Elt Ideal) (kout (V m c main_arg0) (V m c main_v3) (V m c main_v8)) := by
  have h7 : t.val % 8 = 7 := (flush0_3 t).mp hf
  have hN : t.val < 32 := lt_of_lt_of_eq t.isLt (show cfg0.N = 32 from N_0)
  show (cfg0.win 3).cut (grid0.coords t) ((dats m 0 c).after 3 t) = _
  rw [after0_3]
  funext j
  rw [View.read_apply]
  have hj : (j 0).val < 1024 := (j 0).isLt
  have hlt : 1024 * (t.val / 8) + (j 0).val < 4096 := by omega
  show (outsAt0 m c t.val t.isLt).1 ((cfg0.win 3).xinj (grid0.coords t) j)
    = kout (V m c main_arg0) (V m c main_v3) (V m c main_v8) (((cfg0.win 3).blk t).view.emb j)
  refine (out_apply' m c t h7 ((cfg0.win 3).xinj (grid0.coords t) j) ⟨1024 * (t.val / 8) + (j 0).val, hlt⟩ ?_).trans ?_
  · show 1024 * (t.val / 8) + (j 0).val = 1024 * (t.val / 8) + (j 0).val
    rfl
  · refine congrArg rowMax (funext fun g => congrArg gelu2 (congrArg (· + _)
      (congrArg (fun R => partialDot _ _ R g 8) (Fin.ext ?_))))
    show 1024 * (t.val / 8) + (j 0).val = win0_3.index t 0 * 1024 + 1 * (j 0).val
    rw [(idx_o t).1]; omega

/-- The four writing points cover the column. -/
theorem covered (i : S4096x1.Idx) :
    ∃ t : Fin cfg0.N, (cfg0.win 3).flush t = true ∧ i ∈ ((cfg0.win 3).blk t).view.set := by
  have hi0 : (i 0).val < 4096 := (i 0).isLt
  have hi1 : (i 1).val < 1 := (i 1).isLt
  have hN : cfg0.N = 32 := N_0
  let t : Fin cfg0.N := ⟨8 * ((i 0).val / 1024) + 7, by rw [hN]; omega⟩
  have ht : t.val = 8 * ((i 0).val / 1024) + 7 := rfl
  refine ⟨t, (flush0_3 t).mpr (by rw [ht]; omega), ?_⟩
  show i ∈ ((View.whole main_v9).slice (win0_3.rect t)).set
  rw [View.set_slice_whole, Rect.mem_set_unit]
  intro a
  match a with
  | ⟨0, _⟩ =>
    show win0_3.index t 0 * 1024 ≤ (i 0).val ∧ (i 0).val < win0_3.index t 0 * 1024 + 1024
    rw [(idx_o t).1, ht]; omega
  | ⟨1, _⟩ =>
    show win0_3.index t 1 * 1 ≤ (i 1).val ∧ (i 1).val < win0_3.index t 1 * 1 + 1
    rw [(idx_o t).2]; omega

/-- So after the run the kernel's output array is that column. -/
theorem final (c : Dev nD) :
    (dats m 0 c).arrAt 3 cfg0.N = kout (V m c main_arg0) (V m c main_v3) (V m c main_v8) :=
  (dats m 0 c).arrAt_eq_of_cover 3 (kout (V m c main_arg0) (V m c main_v3) (V m c main_v8)) (flushed_eq m c) (covered)

/-- The program's result: the column with its unit axis dropped, as a function of the three argument arrays. -/
def kres (X : S4096x8192.Idx → EReal) (W : S8192x8192.Idx → EReal) (b : S8192.Idx → EReal) : S4096.Idx → EReal :=
  shapeCast S4096 (kout X (avgW W) (avgB b)) shapeCasts_S4096x1_S4096

/-- The host line after the kernel leaves it in the result buffer. -/
theorem tail_eq (c : Dev nD) :
    Pipeline.afterTail₀ cfgs (dats m) 0 (V0 m) [hostOps1] c main_v10
      = kres (m ((c : Thread nD τ).loc main_arg0)) (m ((c : Thread nD τ).loc main_arg1)) (m ((c : Thread nD τ).loc main_arg2)) := by
  unfold Pipeline.afterTail₀
  show StableHlo.after hostOps1 _ (Proc.devRef .tc main_v10) = _
  after_results
  have hw : Pipeline.withArrays (cfgs 0).spec c (V0 m c) (fun w => (dats m 0 c).arrAt w (cfgs 0).N) (Proc.devRef .tc main_v9)
      = kout (m ((c : Thread nD τ).loc main_arg0)) (avgW (m ((c : Thread nD τ).loc main_arg1))) (avgB (m ((c : Thread nD τ).loc main_arg2))) :=
    (Pipeline.withArrays_arr spec0 launch0.win.arr_inj c _ _ 3).trans ((final m c).trans (by
      rw [V_main_arg0, V_avgW, V_avgB]))
  funext i
  show shapeCast S4096 (Pipeline.withArrays (cfgs 0).spec c (V0 m c) (fun w => (dats m 0 c).arrAt w (cfgs 0).N) (Proc.devRef .tc main_v9))
    shapeCasts_S4096x1_S4096 i = _
  rw [hw]
  rfl

/-- The kernel program's run, read: the result buffer ends at `kres` of the launch contents of the three arguments,
    which end unchanged. -/
theorem run : θ_run defs (onTc (τ := τ) (main (F := Ideal))) ⟨m, fun _ => 0, ρ⟩ (fun r => ∀ c : Dev nD,
      r.2.mem ((c.tc : Thread nD τ).loc main_v10)
        = kres (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v10 (Pipeline.mem_restRefs_of main_v10 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

/-- Entry `R` of the result is entry `(R, 0)` of the column. -/
theorem kres_apply (X : S4096x8192.Idx → EReal) (W : S8192x8192.Idx → EReal) (b : S8192.Idx → EReal) (R : Fin 4096) :
    kres X W b (ix1 R) = kout X (avgW W) (avgB b) (ix2 R (0 : Fin 1)) := by
  unfold kres
  refine shapeCast_apply _ _ (ix1 R) (ix2 R (0 : Fin 1)) ?_
  rw [Shape.rowMajor_val_two, Shape.rowMajor_val_one]
  show R.val * 1 + 0 = R.val
  omega

end Cert.KernelIdeal.Val

end
-- ==== Proof.RefSide.lean ====
/-
  The reference read entry by entry over the extended reals: the group's averaged logit is the zero word plus the
  sum over the sixteen rows `16 g + j` of (the product of row `R` of `x` with that row of `W`, plus that row's bias),
  divided by the word of sixteen; the result at row `R` is the maximum over the 512 groups of its doubled GELU.
-/
import proofs.«168385_j25056839205126_2_alg».proof.Proof.Gen.ReferenceIdeal.Read
import proofs.«168385_j25056839205126_2_alg».proof.Proof.Spec

set_option maxRecDepth 16384

noncomputable section

open scoped BigOperators

namespace Cert.ReferenceIdeal.RefVal

open Idealize.ShloMosaic Idealize.ShloMosaic.TcCoe Idealize.SL.Sem
open Cert.ReferenceIdeal Cert.ReferenceIdeal.Gen Cert.ReferenceIdeal.Read Idealize.ShloMosaic.ValueIdx Cert.PoolSpec

variable (x0 : S4096x8192.Idx → EReal) (x1 : S8192x8192.Idx → EReal) (x2 : S8192.Idx → EReal)

/-- Row `j` of group `g` is row `16 g + j`. -/
theorem groupRow_lt (g : Fin 512) (j : Fin 16) : 16 * g.val + j.val < 8192 := by
  have := g.isLt; have := j.isLt; omega

/-- The averaged logit of row `R` and group `g`. -/
theorem pooled_apply (R : Fin 4096) (g : Fin 512) :
    val_main_v8 (F := Ideal) x0 x1 x2 (ix2 R g)
      = Ideal.div (Ideal.ofBits .f32 0x00000000#32
          + ∑ j : Fin 16, ((∑ k : Fin 8192, x0 (ix2 R k) * x1 (ix2 ⟨16 * g.val + j.val, groupRow_lt g j⟩ k))
              + x2 (ix1 ⟨16 * g.val + j.val, groupRow_lt g j⟩)))
          (Ideal.ofBits .f32 0x41800000#32) := by
  rw [val_main_v8_apply, val_main_v6_apply, val_main_v7_apply, val_main_cst_0_apply, val_main_cst_apply]
  simp only [Ideal.hostDivf_def, Ideal.ofBits_def]
  refine congrArg₂ Ideal.div (congrArg (_ + ·) (Finset.sum_congr rfl fun j _ => ?_)) rfl
  have hR : R.val < 4096 := R.isLt
  have hg : g.val < 512 := g.isLt
  have hj : j.val < 16 := j.isLt
  have hidx : idx_main_v5 (idx_main_v6 (ix2 R g) j) = ix2 R ⟨16 * g.val + j.val, groupRow_lt g j⟩ :=
    funext fun a => Fin.ext (by
      match a with
      | ⟨0, _⟩ => show ((R.val * 512 + g.val) * 16 + j.val) / 8192 = R.val; omega
      | ⟨1, _⟩ => show ((R.val * 512 + g.val) * 16 + j.val) % 8192 = 16 * g.val + j.val; omega)
  rw [val_main_v5_apply, hidx, val_main_v4_apply, val_main_v1_apply, val_main_v3_apply, val_main_v2_apply]
  simp only [Ideal.addf_def]
  refine congrArg₂ (· + ·) (Finset.sum_congr rfl fun k _ => ?_) ?_
  · rw [val_main_v0_apply]
    refine congrArg₂ (· * ·) (congrArg x0 (funext fun a => Fin.ext ?_)) (congrArg x1 (funext fun a => Fin.ext ?_))
    · match a with
      | ⟨0, _⟩ => rfl
      | ⟨1, _⟩ => rfl
    · match a with
      | ⟨0, _⟩ => rfl
      | ⟨1, _⟩ => rfl
  · refine congrArg x2 (funext fun a => Fin.ext ?_)
    match a with
    | ⟨0, _⟩ => rfl

/-- The reference's result at row `R`. -/
theorem ref_apply (R : Fin 4096) :
    val_main_v24 (F := Ideal) x0 x1 x2 (ix1 R)
      = rowMax fun g => gelu2 (val_main_v8 (F := Ideal) x0 x1 x2 (ix2 R g)) := by
  have hred : S4096x512.Reduces [1] S4096 := by decide
  unfold val_main_v24
  rw [Host.reduce_eq_fold_single FloatOps.maximumf _ _ reducesTo_S4096x512_S4096_d1 hred h_S_]
  unfold rowMax
  show Finset.fold max (Ideal.ofBits .f32 0xFF800000#32) _ (Finset.univ : Finset (Fin 512)) = _
  refine congrArg (fun f => Finset.fold max (Ideal.ofBits .f32 0xFF800000#32) f (Finset.univ : Finset (Fin 512)))
    (funext fun (g : Fin 512) => ?_)
  have hl : hred.lift (ix1 R) g = ix2 R g :=
    funext fun ax => Fin.ext (by
      match ax with
      | ⟨0, _⟩ => rfl
      | ⟨1, _⟩ => rfl)
  show val_main_v23 (F := Ideal) x0 x1 x2 (hred.lift (ix1 R) g) = _
  rw [hl]
  rw [val_main_v23_apply, val_main_v22_apply, val_main_cst_5_apply, val_main_v21_apply, val_main_v20_apply,
    val_main_v19_apply, val_main_cst_4_apply, val_main_v18_apply, val_main_v17_apply, val_main_cst_3_apply,
    val_main_v16_apply, val_main_v15_apply, val_main_v14_apply, val_main_cst_2_apply, val_main_v13_apply,
    val_main_v12_apply, val_main_v11_apply, val_main_cst_1_apply, val_main_v10_apply, val_main_v9_apply]
  simp only [Ideal.mulf_def, Ideal.addf_def, Ideal.hostUnary_tanh_def, Ideal.ofBits_def]
  exact gelu2_ref _

end Cert.ReferenceIdeal.RefVal

end
-- ==== Proof.Bridge.lean ====
/-
  The two results are one function of real arguments.  The kernel's accumulator entry after eight k-steps is the
  zero word plus the blocked product of a row of `x` with a row of the averaged weights; with the averaged bias added
  it equals, for real entries, the reference's averaged logit (the law of the specification), and the doubled GELU
  and the maximum over the groups are applied to it on both sides.
-/
import proofs.«168385_j25056839205126_2_alg».proof.Proof.KernelOut
import proofs.«168385_j25056839205126_2_alg».proof.Proof.RefSide

set_option maxRecDepth 16384

noncomputable section

open scoped BigOperators

namespace Cert.Bridge

open Idealize.ShloMosaic Idealize.ShloMosaic.ValueIdx Cert.PoolSpec Cert.Lib.BlockSum
open Cert.KernelIdeal.Val Cert.ReferenceIdeal.RefVal Cert.ReferenceIdeal.Read

/-- After all eight k-steps the accumulator entry is the zero word plus the blocked sum over the 8192 columns. -/
theorem partialDot_eight (X : (⟨2, ![4096, 8192]⟩ : Shape).Idx → EReal) (Wp : (⟨2, ![512, 8192]⟩ : Shape).Idx → EReal)
    (R : Fin 4096) (g : Fin 512) :
    partialDot X Wp R g 8 = Ideal.ofBits .f32 0x00000000#32 + ∑ kb : Fin 8, ∑ kk : Fin 1024,
      X (ix2 R ⟨kb.val * 1024 + kk.val, blockPos_lt (by norm_num : 8 * 1024 = 8192) kb kk⟩)
        * Wp (ix2 g ⟨kb.val * 1024 + kk.val, blockPos_lt (by norm_num : 8 * 1024 = 8192) kb kk⟩) := by
  unfold partialDot stepDot
  rw [Finset.sum_range]
  refine congrArg (_ + ·) (Finset.sum_congr rfl fun kb _ => Finset.sum_congr rfl fun kk _ => ?_)
  have hlt := blockPos_lt (by norm_num : 8 * 1024 = 8192) kb kk
  rw [xrow, wrow, dif_pos hlt, dif_pos hlt]

/-- For real arguments the kernel's result and the reference's agree at every row. -/
theorem result_row (X : (⟨2, ![4096, 8192]⟩ : Shape).Idx → EReal) (W : (⟨2, ![8192, 8192]⟩ : Shape).Idx → EReal)
    (b : (⟨1, ![8192]⟩ : Shape).Idx → EReal)
    (hX : ∀ i, ∃ r : ℝ, X i = (r : EReal)) (hW : ∀ i, ∃ r : ℝ, W i = (r : EReal)) (hb : ∀ i, ∃ r : ℝ, b i = (r : EReal))
    (R : Fin 4096) :
    kres X W b (ix1 R) = val_main_v24 (F := Ideal) X W b (ix1 R) := by
  rw [kres_apply, ref_apply]
  unfold kout
  refine congrArg rowMax (funext fun g => congrArg gelu2 ?_)
  rw [pooled_apply, partialDot_eight]
  choose xr hxr using hX
  choose wr hwr using hW
  choose br hbr using hb
  simp only [avgW_apply, avgB_apply, hxr, hwr, hbr]
  exact pool_law (fun k => xr (ix2 R k)) (fun j k => wr (ix2 ⟨16 * g.val + j.val, Cert.KernelIdeal.Val.groupRow_lt g j⟩ k))
    (fun j => br (ix1 ⟨16 * g.val + j.val, Cert.KernelIdeal.Val.groupRow_lt g j⟩))

end Cert.Bridge

end
-- ==== Proof.Finite.lean ====
/-
  The precondition, read back: `finite_inputs` says of each of the three argument arrays that every entry's
  absolute value is below the word of plus infinity, that is, that every entry is a real number.
-/
import proofs.«168385_j25056839205126_2_alg».proof.Pre_finite_inputs
import Idealize.ShloMosaic.Lib.ReduceAll
import Idealize.ShloMosaic.Lib.ValueIdx
import Idealize.ShloMosaic.PureOps.Ideal

noncomputable section

namespace Cert.FiniteInputs

open Idealize.ShloMosaic Cert.Pre_finite_inputs

/-- The rank-0 shape has one index. -/
instance : Subsingleton S_.Idx := ⟨fun a b => funext fun d => d.elim0⟩

/-- An extended real whose absolute value `max x (-x)` is below the float word of `+∞` is a real. -/
theorem real_of_abs_lt (x : EReal) (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- Under `finite_inputs` every entry of `x`, of `W` and of `b` is a real. -/
theorem entries_real [Facts] (a0 : FVec Ideal S4096x8192 .f32) (a1 : FVec Ideal S8192x8192 .f32) (a2 : FVec Ideal S8192 .f32)
    (h : fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ValueIdx.ix0
  dsimp only [fn] at h0
  obtain ⟨h01, h2⟩ := IntOp.andi_eq_one.1 h0
  obtain ⟨hx, hw⟩ := IntOp.andi_eq_one.1 h01
  refine ⟨fun i => ?_, fun i => ?_, fun i => ?_⟩
  · exact real_of_abs_lt _ (Host.reduce_andi_all _ _ _ _ _ hx i)
  · exact real_of_abs_lt _ (Host.reduce_andi_all _ _ _ _ _ hw i)
  · exact real_of_abs_lt _ (Host.reduce_andi_all _ _ _ _ _ h2 i)

end Cert.FiniteInputs

end
-- ==== Proof.lean ====
/-
  The certificate of a fused linear layer, average pool, tanh-GELU, scale and row maximum.

  The reference computes `max_g 2·gelu( mean_{j<16} (x · W[16g+j] + b[16g+j]) )` for each of the 4096 rows `x`.  The
  kernel uses that the mean is linear: the host lines before it average the weight rows and the biases over each
  group of sixteen, and the kernel multiplies `x` by the averaged weights — accumulating over eight blocks of 1024
  columns in a scratch buffer carried across the grid's k-steps —, adds the averaged bias, and applies the GELU, the
  scale and the maximum at the last k-step.  Over the extended reals the two agree when the entries are real:
  distributivity, which exchanges "average then multiply" with "multiply then average", fails at the infinities, so
  the precondition (all inputs finite) is used.

  Each program runs and leaves its arguments unchanged (the reference's run with its result dropped is its frame);
  the idealization rewrote nothing, so `preserves` is `True`; for `algebraic` the kernel's result array is read off
  its run — the accumulator by induction over the grid's points, the four output blocks tiling the column, the
  unit axis dropped after the kernel — and joined with the reference's result row by row.
-/
import proofs.«168385_j25056839205126_2_alg».proof.Defs
import proofs.«168385_j25056839205126_2_alg».proof.Proof.Gen.Kernel
import proofs.«168385_j25056839205126_2_alg».proof.Proof.Gen.Kernel.Skeleton
import proofs.«168385_j25056839205126_2_alg».proof.Proof.Gen.Kernel.Launch
import proofs.«168385_j25056839205126_2_alg».proof.Proof.Gen.Kernel.Points
import proofs.«168385_j25056839205126_2_alg».proof.Proof.Gen.Kernel.Frame
import proofs.«168385_j25056839205126_2_alg».proof.Proof.Gen.KernelIdeal
import proofs.«168385_j25056839205126_2_alg».proof.Proof.Gen.KernelIdeal.Skeleton
import proofs.«168385_j25056839205126_2_alg».proof.Proof.Gen.KernelIdeal.Launch
import proofs.«168385_j25056839205126_2_alg».proof.Proof.Gen.KernelIdeal.Points
import proofs.«168385_j25056839205126_2_alg».proof.Proof.Gen.KernelIdeal.Frame
import proofs.«168385_j25056839205126_2_alg».proof.Proof.Gen.ReferenceIdeal
import proofs.«168385_j25056839205126_2_alg».proof.Proof.Gen.ReferenceIdeal.Run
import proofs.«168385_j25056839205126_2_alg».proof.Proof.Gen.ReferenceIdeal.Read
import proofs.«168385_j25056839205126_2_alg».proof.Proof.Gen.Pre_finite_inputs
import proofs.«168385_j25056839205126_2_alg».proof.Proof.Bridge
import proofs.«168385_j25056839205126_2_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs, from memories agreeing on the three arguments, end with the same result: the kernel's result
    array is `kres` of the arguments, the reference's its own term of them, and for real entries — which the
    precondition gives — the two agree at every row. -/
theorem algebraic : Cert.algebraic_KernelIdeal_ReferenceIdeal := by
  intro m ρ m' ρ' hpre hagree
  refine ⟨fun c => Cert.KernelIdeal.Val.kres (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v24_eq]
  obtain ⟨hx, hw, hb⟩ := Cert.FiniteInputs.entries_real _ _ _ (hpre c)
  funext i
  rw [eq_ix1 i]
  exact (Cert.Bridge.result_row _ _ _ hx hw hb (i 0)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
